-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S2048x512 : Shape := ⟨2, ![2048, 512]⟩
abbrev S2048x2048 : Shape := ⟨2, ![2048, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x2048, .f32⟩
  | .local _ .vmem, ⟨9, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  natLt_1_32 : 1 < 32
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .f32 = 32 ∨ (Rect.block (s := S8192x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S8192x4096.size a
  hwx1_2 : ∀ i : grid1.Coords, EltTy.bits .f32 = 32 ∨ (Rect.block (s := S8192x4096) S2048x2048.size (cc1_transform_2 i) (hinb1_2 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .i1⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, index by index, on the extended reals.

  A synapse state `s` is ternarized to `tern s`: 1 above the threshold 1, -1 below -1, 0 in between. The input current
  of neuron `q` for sample `p` is the row product `∑ₖ a(p,k) · tern (s(q,k))` over the 4096 input features, and the
  output spike is 1 where that current reaches the threshold 1 and 0 elsewhere.
-/
import Idealize.ShloMosaic.PureOps.Ideal
import Idealize.ShloMosaic.Lib.ValueIdx

noncomputable section

open scoped BigOperators

namespace Cert.Spec

open Idealize.ShloMosaic Idealize.ShloMosaic.ValueIdx

/-- The words of 1, -1 and 0. -/
abbrev one : Ideal .f32 := Ideal.ofBits .f32 0x3F800000#32
abbrev mone : Ideal .f32 := Ideal.ofBits .f32 0xBF800000#32
abbrev zero : Ideal .f32 := Ideal.ofBits .f32 0x00000000#32

/-- A synapse state ternarized: 1 above 1, else -1 below -1, else 0. -/
def tern (s : Ideal .f32) : Ideal .f32 :=
  Scalar.select (Ideal.cmp .ogt s one) one (Scalar.select (Ideal.cmp .olt s mone) mone zero)

/-- The spike: the one-bit word of `1 ≤ x`, read as the number 0 or 1. -/
def spike (x : Ideal .f32) : Ideal .f32 := (((Ideal.cmp .oge x one).toNat : ℝ) : EReal)

/-- The input current of neuron `q` for sample `p`: row `p` of the inputs against row `q` of the ternarized states. -/
def current (a : (⟨2, ![8192, 4096]⟩ : Shape).Idx → Ideal .f32) (s : (⟨2, ![4096, 4096]⟩ : Shape).Idx → Ideal .f32)
    (p : Fin 8192) (q : Fin 4096) : Ideal .f32 :=
  ∑ k : Fin 4096, a (ix2 p k) * tern (s (ix2 q k))

/-- The output spikes, as one function of the two argument arrays. -/
def G (a : (⟨2, ![8192, 4096]⟩ : Shape).Idx → Ideal .f32) (s : (⟨2, ![4096, 4096]⟩ : Shape).Idx → Ideal .f32) :
    (⟨2, ![8192, 4096]⟩ : Shape).Idx → Ideal .f32 :=
  fun i => spike (current a s ⟨(i 0).val, (i 0).isLt⟩ ⟨(i 1).val, (i 1).isLt⟩)

theorem G_apply (a : (⟨2, ![8192, 4096]⟩ : Shape).Idx → Ideal .f32) (s : (⟨2, ![4096, 4096]⟩ : Shape).Idx → Ideal .f32)
    (p : Fin 8192) (q : Fin 4096) : G a s (ix2 p q) = spike (current a s p q) := rfl

end Cert.Spec

end
-- ==== Proof.RefSide.lean ====
/-
  The reference program read index by index is the specification.

  The reference ternarizes the synapse states (1 where the state exceeds 1, else -1 where it is below -1, else 0),
  transposes the ternarized array, multiplies the inputs by it, and emits the one-bit word of "the product entry is at
  least 1" as the number 0 or 1. Entry (k, q) of the transposed array is the ternarized state (q, k), so entry (p, q)
  of the product is the row product of input row p with ternarized state row q: the specification's current, and the
  emitted number is its spike.
-/
import proofs.«155956_j12695923326984_2_alg».proof.Proof.Gen.ReferenceIdeal.Read
import proofs.«155956_j12695923326984_2_alg».proof.Proof.Spec

noncomputable section

open scoped BigOperators

namespace Cert.RefSide

open Idealize.ShloMosaic Idealize.ShloMosaic.ValueIdx Cert.ReferenceIdeal Cert.ReferenceIdeal.Read

/-- The left operand of the product entry (p, q) is read at (p, k). -/
theorem left_index (p : Fin 8192) (q k : Fin 4096) : lidx_main_v8 (ix2 p q) k = ix2 p k :=
  funext fun a => Fin.ext (by match a with | ⟨0, _⟩ => rfl | ⟨1, _⟩ => rfl)

/-- The right operand of the product entry (p, q) is the transposed array at (k, q): the untransposed one at (q, k). -/
theorem right_index (p : Fin 8192) (q k : Fin 4096) : idx_main_v7 (ridx_main_v8 (ix2 p q) k) = ix2 q k :=
  funext fun a => Fin.ext (by match a with | ⟨0, _⟩ => rfl | ⟨1, _⟩ => rfl)

/-- The transposed ternarized array at an index is the ternarized state at the transposed index. -/
theorem weight_apply (x1 : (⟨Cert.ReferenceIdeal.S4096x4096, .f32⟩ : BufTy).Contents (Elt Ideal)) (j : S4096x4096.Idx) :
    val_main_v7 (F := Ideal) x1 j = Cert.Spec.tern (x1 (idx_main_v7 j)) := by
  rw [val_main_v7_apply, val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The reference's result is the specification's spikes. -/
theorem ref_eq (x0 : (⟨Cert.ReferenceIdeal.S8192x4096, .f32⟩ : BufTy).Contents (Elt Ideal)) (x1 : (⟨Cert.ReferenceIdeal.S4096x4096, .f32⟩ : BufTy).Contents (Elt Ideal)) :
    Cert.ReferenceIdeal.Read.val_main_v11 (F := Ideal) x0 x1 = Cert.Spec.G x0 x1 := by
  funext i
  obtain ⟨p, q, rfl⟩ : ∃ (p : Fin 8192) (q : Fin 4096), i = ix2 p q := ⟨i 0, i 1, eq_ix2 i⟩
  rw [val_main_v11_apply, val_main_v10_apply, val_main_v8_apply, val_main_v9_apply, val_main_cst_4_apply,
    Cert.Spec.G_apply]
  have e : (∑ k : Fin 4096, x0 (lidx_main_v8 (ix2 p q) k) * val_main_v7 (F := Ideal) x1 (ridx_main_v8 (ix2 p q) k))
      = Cert.Spec.current x0 x1 p q := by
    unfold Cert.Spec.current
    refine Finset.sum_congr rfl fun k _ => ?_
    rw [weight_apply, left_index, right_index]
  rw [e]
  rfl

end Cert.RefSide

end
-- ==== Proof.KRun.lean ====
/-
  The idealized kernel's run with its RESULT named. The program is two kernel launches in a row: the first writes the
  ternarized synapse states, the second reads them beside the inputs and writes the spikes. Every weakly fair execution
  terminates, nothing faults, the two argument arrays end as launched, and the result array ends at what the second
  launch's write-backs leave of it: the fold of that launch's flushed blocks over the array as the launch found it.
  The statement differs from the frame only in that it also reads the result array off the last thread state.
-/
import proofs.«155956_j12695923326984_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the second launch's folded write-backs, the arguments unchanged. The last thread state
    holds every unscoped buffer at the contents the two launches leave; the result array is the second launch's output
    window's array, so its contents there are that launch's `arrAt` after all its points. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c)⟩)

end Cert.KernelIdeal.RunV

end
-- ==== Proof.KTern.lean ====
/-
  The first launch: the synapse states ternarized, as one function of the array.

  The launch walks the [4096, 4096] array of synapse states in 8 blocks of 512 whole rows; at each block it stores the
  pointwise ternarization of the block it loaded (1 above the threshold 1, -1 below -1, 0 in between, then the change of
  float format). Block `t` of the result is therefore block `t` of the pointwise ternarization of the whole array, the 8
  blocks tile the array, and the array ends at that one function of the states as the launch found them.
-/
import proofs.«155956_j12695923326984_2_alg».proof.Proof.Gen.KernelIdeal.Frame
import Idealize.ShloMosaic.Lib.Pipeline.Value
import Idealize.ShloMosaic.Lib.ValueIdx

set_option maxRecDepth 16384

noncomputable section

namespace Cert.KernelIdeal.Tern

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One synapse state ternarized, as the body computes it: 1 if it is above 1, else -1 if it is below -1, else 0, then
    narrowed to the 16-bit format. -/
def ternS (s : F .f32) : F .bf16 :=
  FloatOps.truncf .bf16 (by decide)
    (Scalar.select (FloatOps.cmpf .ogt s (FloatOps.ofBits .f32 0x3F800000#32)) (FloatOps.ofBits .f32 0x3F800000#32)
      (Scalar.select (FloatOps.cmpf .olt s (FloatOps.ofBits .f32 0xBF800000#32)) (FloatOps.ofBits .f32 0xBF800000#32)
        (FloatOps.ofBits .f32 0x00000000#32)))

/-- The whole array ternarized, entry by entry. -/
abbrev G0 (a : S4096x4096.Idx → Elt F .f32) : S4096x4096.Idx → Elt F .bf16 := fun i => ternS (a i)

/-- The body's stored value is pointwise: entry `j` is the ternarization of entry `j` of the loaded block. -/
theorem pay1_apply (v0 : Vec F S512x4096 .f32) (j : S512x4096.Idx) : k0_pay1 v0 j = ternS (v0 j) := rfl

/-- The index maps of the two windows over the 8 points: both name row block `t`, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the ternarized array. -/
theorem flushed_eq (c : Dev nD) (t : Fin cfg0.N) :
    (dat0 V c).flushed 1 t = ((cfg0.win 1).blk t).view.read (Elt F) (G0 (V c main_arg1)) := by
  show (cfg0.win 1).cut (grid0.coords t) ((dat0 V c).after 1 t) = _
  rw [after0_1]
  unfold out0_1
  rw [View.canon_unit_zero hz]
  simp only [View.ld_unit_zero (S := S512x4096) hz]
  obtain ⟨e0, e1, e2, e3⟩ := idx_facts t
  funext j
  show ternS (V c main_arg1 (((cfg0.win 0).blk t).view.emb j)) = ternS (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the array is in point `t`'s block iff each coordinate is in the block's range on its axis. -/
theorem mem_blk (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every entry of the array lies in the block of the point its row block names. -/
theorem cover (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 8 := N_0
  let t : Fin cfg0.N := ⟨(i 0).val / 512, by rw [hN]; omega⟩
  obtain ⟨e0, e1, e2, e3⟩ := idx_facts t
  have e2' : win0_1.index t (0 : Fin 2) = (i 0).val / 512 := e2
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The array of ternarized states after the launch: the pointwise ternarization of the states as the launch found them. -/
theorem final (c : Dev nD) : (dat0 V c).arrAt 1 cfg0.N = G0 (V c main_arg1) :=
  (dat0 V c).arrAt_eq_of_cover 1 (G0 (V c main_arg1)) (fun t _ => flushed_eq V c t) cover

end Cert.KernelIdeal.Tern

end
-- ==== Proof.KPieces.lean ====
/-
  The second launch's body, case by case, as values. The body runs in one of three ways, by the point's position in its
  run over the eight feature blocks: at the run's first point it clears the output block and then adds the point's
  product block to it; at a middle point it adds the product block to what the point before left; at the last point it
  adds the product block and then thresholds the sum. In each case the stores cover the output block's buffer, the last
  store covers it alone, and a load that follows a covering store reads that store's value back; so what the body leaves
  is the last store's value, written over the values before it.
-/
import proofs.«155956_j12695923326984_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-- A point in the middle of a run over the feature blocks (neither its first nor its last): the body leaves, in the
    output block's buffer holding `xo`, the one store's value of the two loaded blocks and `xo`. -/
theorem out_B (c : Dev nD) (i : grid1.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc0 : ¬cond1_0 i) (hc1 : ¬cond1_1 i) (x0 : Vec F S2048x512 .f32) (x1 : Vec F S2048x512 .bf16) (xo : Vec F S2048x2048 .f32) :
    out1_B_2 c i a3 h3 a4 h4 a5 h5 hc0 hc1 x0 x1 xo = k1_pay2 x0 x1 xo := by
  unfold out1_B_2
  rw [View.read_writes_eq_canon _ _ _ (cover1_B_2 c i a3 h3 a4 h4 a5 h5 hc0 hc1 x0 x1 xo)]
  unfold kernelRun1_B
  dsimp only
  rw [View.canon_unit_zero hz]
  simp only [View.readAt_eq_ld, h3.read_unread, h4.read_unread, h5.read_unread, View.ld_unit_zero (S := S2048x512) hz,
    View.ld_unit_zero (S := S2048x2048) hz]

/-- The first point of a run: the body stores the zero block, reads it back, and leaves the store's value of the two
    loaded blocks and that zero block. -/
theorem out_A (c : Dev nD) (i : grid1.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc0 : cond1_0 i) (hc1 : ¬cond1_1 i) (x0 : Vec F S2048x512 .f32) (x1 : Vec F S2048x512 .bf16) :
    out1_A_2 c i a3 h3 a4 h4 a5 h5 hc0 hc1 x0 x1 = k1_pay2 x0 x1 (k1_pay1 (F := F)) := by
  unfold out1_A_2
  rw [View.read_writes_eq_canon _ _ _ (cover1_A_2 c i a3 h3 a4 h4 a5 h5 hc0 hc1 x0 x1)]
  unfold kernelRun1_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x512) hz,
    View.ld_unit_zero (S := S2048x2048) hz]

/-- The last point of a run: the body stores the accumulated block, reads it back, and leaves the thresholded block. -/
theorem out_C (c : Dev nD) (i : grid1.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc0 : ¬cond1_0 i) (hc1 : cond1_1 i) (x0 : Vec F S2048x512 .f32) (x1 : Vec F S2048x512 .bf16) (xo : Vec F S2048x2048 .f32) :
    out1_C_2 c i a3 h3 a4 h4 a5 h5 hc0 hc1 x0 x1 xo = k1_pay3 (k1_pay2 x0 x1 xo) := by
  unfold out1_C_2
  rw [View.read_writes_eq_canon _ _ _ (cover1_C_2 c i a3 h3 a4 h4 a5 h5 hc0 hc1 x0 x1 xo)]
  unfold kernelRun1_C
  dsimp only
  sl_unfold_words
  rw [View.canon_cons_unit_zero (S := S2048x2048) hz, View.readCov_unit_zero (S := S2048x2048) _ hz]
  simp only [View.readAt_eq_ld, h3.read_unread, h4.read_unread, h5.read_unread, View.ld_unit_zero (S := S2048x512) hz,
    View.ld_unit_zero (S := S2048x2048) hz]

end Cert.KernelIdeal.Pieces

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.KPayload.lean ====
/-
  The matrix-product launch's three stored values, read at one index on the extended reals.

  The first is the zero array. The second adds to an accumulator the sum of two matrix products, each contracting the
  two operands' last axes into a zero accumulator: the inputs' block against the ternarized states' block, and the
  inputs' block minus itself against the same; a narrowing of the number format is the identity here, so entry (p, q)
  of the first product is the row product ∑ₖ a(p,k) · w(q,k), and of the second ∑ₖ (a(p,k) - a(p,k)) · w(q,k). Where
  the inputs are real numbers a(p,k) - a(p,k) is 0, zero times any extended real is 0, and the second product vanishes.
  The third turns the one-bit word of "the entry is at least 1", widened to 32 bits and read as a signed integer, into
  the number 0 or 1: the specification's spike.
-/
import proofs.«155956_j12695923326984_2_alg».proof.Proof.Gen.KernelIdeal.Skeleton
import proofs.«155956_j12695923326984_2_alg».proof.Proof.LibMatmulRows
import proofs.«155956_j12695923326984_2_alg».proof.Proof.Spec
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx

/-- The products' dimension numbers: each operand contracts its second axis, its first axis indexes the result. -/
abbrev D : DotDims S2048x512 S2048x512 S2048x2048 := dot_S2048x512_S2048x512_S2048x2048_1_1_0_0_n_n

/-- The left operand is read at the result's row. -/
theorem lhs_row (i : S2048x2048.Idx) (c : D.contr.Idx) : (D.lhsIdx i c (0 : Fin 2)).val = (i (0 : Fin 2)).val := by
  unfold DotDims.lhsIdx
  rw [dif_neg (show ¬(0 : Fin S2048x512.rank) ∈ D.lhsBatch by decide), dif_pos (show (0 : Fin S2048x512.rank) ∈ D.lhsNonContracting by decide)]
  rfl

/-- The right operand's row is the result's column. -/
theorem rhs_row (i : S2048x2048.Idx) (c : D.contr.Idx) : (D.rhsIdx i c (0 : Fin 2)).val = (i (1 : Fin 2)).val := by
  unfold DotDims.rhsIdx
  rw [dif_neg (show ¬(0 : Fin S2048x512.rank) ∈ D.rhsBatch by decide), dif_pos (show (0 : Fin S2048x512.rank) ∈ D.rhsNonContracting by decide)]
  rfl

/-- A product into the zero accumulator at entry (p, q): row p of the left operand against row q of the right one. -/
theorem product_apply {φ₁ φ₂ : FTy} (l : FVec Ideal S2048x512 φ₁) (r : FVec Ideal S2048x512 φ₂) (p q : Fin 2048) :
    matmul D none l r (constant S2048x2048 .f32 0x00000000#32) (ix2 p q) = ∑ k : Fin 512, l (ix2 p k) * r (ix2 q k) :=
  MatmulRows.matmul_zero_rows (a := 2048) (n := 512) (b := 2048) D rfl rfl lhs_row
    (fun i c => D.lhsIdx_val_of_single rfl i c) rhs_row (fun i c => D.rhsIdx_val_of_single rfl i c) none l r p q

/-- The first stored value is the zero array. -/
theorem pay1_apply (j : S2048x2048.Idx) : k1_pay1 (F := Ideal) j = Ideal.ofBits .f32 0x00000000#32 := rfl

/-- The second stored value at (p, q): the accumulator plus the two products' entries. -/
theorem pay2_apply (x0 : FVec Ideal S2048x512 .f32) (x1 : FVec Ideal S2048x512 .bf16) (acc : FVec Ideal S2048x2048 .f32)
    (p q : Fin 2048) :
    k1_pay2 (F := Ideal) x0 x1 acc (ix2 p q)
      = acc (ix2 p q) + (∑ k : Fin 512, x0 (ix2 p k) * x1 (ix2 q k)
          + ∑ k : Fin 512, (x0 (ix2 p k) - x0 (ix2 p k)) * x1 (ix2 q k)) := by
  have e1 := product_apply (truncf .bf16 x0 Facts₀.bitsLt_bf16_f32) x1 p q
  have e2 := product_apply (truncf .bf16 (subf x0 x0) Facts₀.bitsLt_bf16_f32) x1 p q
  unfold k1_pay2
  rw [shapeCast_self x1, shapeCast_self acc]
  show acc (ix2 p q) + (matmul D none (truncf .bf16 x0 Facts₀.bitsLt_bf16_f32) x1 (constant S2048x2048 .f32 0x00000000#32) (ix2 p q)
    + matmul D none (truncf .bf16 (subf x0 x0) Facts₀.bitsLt_bf16_f32) x1 (constant S2048x2048 .f32 0x00000000#32) (ix2 p q)) = _
  rw [e1, e2]
  rfl

/-- The second stored value at (p, q) where the inputs are real: the accumulator plus the row product. -/
theorem pay2_fin (x0 : FVec Ideal S2048x512 .f32) (x1 : FVec Ideal S2048x512 .bf16) (acc : FVec Ideal S2048x2048 .f32)
    (hx : ∀ j, ∃ r : ℝ, x0 j = (r : EReal)) (p q : Fin 2048) :
    k1_pay2 (F := Ideal) x0 x1 acc (ix2 p q) = acc (ix2 p q) + ∑ k : Fin 512, x0 (ix2 p k) * x1 (ix2 q k) := by
  have hz : ∑ k : Fin 512, (x0 (ix2 p k) - x0 (ix2 p k)) * x1 (ix2 q k) = 0 :=
    Finset.sum_eq_zero fun k _ => by
      obtain ⟨r, hr⟩ := hx (ix2 p k)
      rw [hr, ← EReal.coe_sub, sub_self, EReal.coe_zero, zero_mul]
  rw [pay2_apply, hz, add_zero]

/-- A one-bit word widened to 32 bits and read as a signed integer is the word read as a natural number. -/
theorem word_real (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

/-- The third stored value is the spike of the value it reads. -/
theorem pay3_apply (v : FVec Ideal S2048x2048 .f32) (j : S2048x2048.Idx) : k1_pay3 (F := Ideal) v j = Cert.Spec.spike (v j) := by
  unfold k1_pay3
  rw [shapeCast_self v]
  exact word_real _

end Cert.KernelIdeal.Payload

end
-- ==== Proof.KAccum.lean ====
/-
  The second launch's accumulation over the feature blocks.

  The launch's grid is 4 row blocks of the inputs by 2 row blocks of the ternarized states by 8 feature blocks, the
  feature block moving fastest: point `t` works on input rows `2048·(t/16) + p`, state rows `2048·((t/8) mod 2) + q` and
  features `512·(t mod 8) + k`. The output block stays in its buffer through the 8 points of a run. With the inputs real
  numbers the compensation product vanishes (`x - x = 0` and `0 · w = 0`), so each point adds to entry `(p, q)` of
  the buffer the product of its two loaded blocks' rows `p` and `q`: after the point at offset `j` of its run the
  entry is the zero word plus the sum of the first `j + 1` points' row products, and the run's last point leaves the
  spike of that sum over all 8.
-/
import proofs.«155956_j12695923326984_2_alg».proof.Proof.KPieces
import proofs.«155956_j12695923326984_2_alg».proof.Proof.KPayload

set_option maxRecDepth 16384

noncomputable section

open scoped BigOperators

namespace Cert.KernelIdeal.Accum

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The inputs as the launch finds them, by natural coordinates (0 outside the array: never read). -/
def A (c : Dev nD) (r k : ℕ) : EReal :=
  if h : r < 8192 ∧ k < 4096 then (V c main_arg0 (ix2 ⟨r, h.1⟩ ⟨k, h.2⟩) : EReal) else 0

/-- The ternarized states as the launch finds them, by natural coordinates (0 outside the array: never read). -/
def W (c : Dev nD) (r k : ℕ) : EReal :=
  if h : r < 4096 ∧ k < 4096 then (V c main_v0 (ix2 ⟨r, h.1⟩ ⟨k, h.2⟩) : EReal) else 0

/-- Point `t`'s addend at entry `(p, q)` of its output block: row `p` of its input block against row `q` of its
    block of ternarized states, over the point's 512 features. -/
def D (c : Dev nD) (p q : Fin 2048) (t : ℕ) : EReal :=
  ∑ k : Fin 512, A V c (2048 * (t / 16) + p.val) (k.val + 512 * (t % 8)) * W V c (2048 * (t / 8 % 2) + q.val) (k.val + 512 * (t % 8))

/-- The three windows' index maps over the 64 points. -/
theorem idx_facts : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

/-- Point `t`'s input block and its block of ternarized states, as vectors of extended reals. -/
def xA (c : Dev nD) (t : Fin cfg1.N) : FVec Ideal S2048x512 .f32 := iblk1 V c 0 t
def xW (c : Dev nD) (t : Fin cfg1.N) : FVec Ideal S2048x512 .bf16 := iblk1 V c 1 t

/-- Entry `(p, k)` of point `t`'s input block is the input at row `2048·(t/16) + p`, feature `k + 512·(t mod 8)`. -/
theorem iblk0_apply (c : Dev nD) (t : Fin cfg1.N) (p : Fin 2048) (k : Fin 512) :
    xA V c t (ix2 p k) = A V c (2048 * (t.val / 16) + p.val) (k.val + 512 * (t.val % 8)) := by
  obtain ⟨e0, e1, -, -, -, -⟩ := idx_facts t
  have hN : t.val < 64 := lt_of_lt_of_eq t.isLt N_1
  have hp := p.isLt
  have hk := k.isLt
  unfold A
  rw [dif_pos ⟨by omega, by omega⟩]
  unfold xA iblk1
  rw [View.read_apply]
  show V c main_arg0 (((cfg1.win 0).blk t).view.emb (ix2 p k)) = V c main_arg0 _
  refine congrArg (V c main_arg0) ?_
  funext a; apply Fin.ext
  match a with
  | ⟨0, _⟩ => show win1_0.index t (0 : Fin 2) * 2048 + 1 * p.val = 2048 * (t.val / 16) + p.val; omega
  | ⟨1, _⟩ => show win1_0.index t (1 : Fin 2) * 512 + 1 * k.val = k.val + 512 * (t.val % 8); omega

/-- Entry `(q, k)` of point `t`'s block of ternarized states is the state at row `2048·((t/8) mod 2) + q`, feature
    `k + 512·(t mod 8)`. -/
theorem iblk1_apply (c : Dev nD) (t : Fin cfg1.N) (q : Fin 2048) (k : Fin 512) :
    xW V c t (ix2 q k) = W V c (2048 * (t.val / 8 % 2) + q.val) (k.val + 512 * (t.val % 8)) := by
  obtain ⟨-, -, e2, e3, -, -⟩ := idx_facts t
  have hN : t.val < 64 := lt_of_lt_of_eq t.isLt N_1
  have hq := q.isLt
  have hk := k.isLt
  unfold W
  rw [dif_pos ⟨by omega, by omega⟩]
  unfold xW iblk1
  rw [View.read_apply]
  show V c main_v0 (((cfg1.win 1).blk t).view.emb (ix2 q k)) = V c main_v0 _
  refine congrArg (V c main_v0) ?_
  funext a; apply Fin.ext
  match a with
  | ⟨0, _⟩ => show win1_1.index t (0 : Fin 2) * 2048 + 1 * q.val = 2048 * (t.val / 8 % 2) + q.val; omega
  | ⟨1, _⟩ => show win1_1.index t (1 : Fin 2) * 512 + 1 * k.val = k.val + 512 * (t.val % 8); omega

/-- The rows' product of point `t`'s two blocks is the point's addend. -/
theorem D_eq (c : Dev nD) (t : Fin cfg1.N) (p q : Fin 2048) :
    ∑ k : Fin 512, xA V c t (ix2 p k) * xW V c t (ix2 q k)
      = D V c p q t.val :=
  Finset.sum_congr rfl fun k _ => by rw [iblk0_apply, iblk1_apply]

/-- An input block of real inputs holds real numbers. -/
theorem iblk0_real (c : Dev nD) (hfin : ∀ i, ∃ r : ℝ, (V c main_arg0 i : EReal) = (r : EReal)) (t : Fin cfg1.N)
    (j : S2048x512.Idx) : ∃ r : ℝ, xA V c t j = (r : EReal) := by
  unfold xA iblk1
  rw [View.read_apply]
  exact hfin _

/-- At a run's first point the sum over the points so far is the point's own addend. -/
theorem sum_first (f : ℕ → EReal) (n : ℕ) (h0 : n % 8 = 0) : ∑ s ∈ Finset.range (n % 8 + 1), f (8 * (n / 8) + s) = f n := by
  rw [h0, Finset.sum_range_one]
  rw [show 8 * (n / 8) + 0 = n from by omega]

/-- At a later point of a run the sum over the points so far is the sum up to the point before plus the point's addend. -/
theorem sum_next (f : ℕ → EReal) (n : ℕ) (h0 : ¬(n + 1) % 8 = 0) :
    ∑ s ∈ Finset.range ((n + 1) % 8 + 1), f (8 * ((n + 1) / 8) + s) = ∑ s ∈ Finset.range (n % 8 + 1), f (8 * (n / 8) + s) + f (n + 1) := by
  rw [show (n + 1) % 8 = n % 8 + 1 from by omega, show (n + 1) / 8 = n / 8 from by omega, Finset.sum_range_succ _ (n % 8 + 1)]
  rw [show 8 * (n / 8) + (n % 8 + 1) = n + 1 from by omega]

/-- Before a run's last point: entry `(p, q)` of the output block's buffer after point `n` is the zero word plus the row
    products of the run's points up to `n`. By induction on the point. -/
theorem partial_eq (c : Dev nD) (hfin : ∀ i, ∃ r : ℝ, (V c main_arg0 i : EReal) = (r : EReal)) :
    ∀ (n : ℕ) (h : n < cfg1.N), ¬n % 8 = 7 → ∀ (p q : Fin 2048),
      outsAt1 V c n h (ix2 p q) = Spec.zero + ∑ s ∈ Finset.range (n % 8 + 1), D V c p q (8 * (n / 8) + s)
  | 0, h, _, p, q => by
    have e1 := outsAt1_A V c ⟨0, h⟩ rfl (show ¬((0 : ℕ) % 8 = 7) from by decide)
    have e2 := Pieces.out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
          ((hcond1_0 ⟨0, h⟩).mpr rfl) (fun hh => (show ¬((0 : ℕ) % 8 = 7) from by decide) ((hcond1_1 ⟨0, h⟩).mp hh))
          (iblk1 V c 0 ⟨0, h⟩) (iblk1 V c 1 ⟨0, h⟩)
    have e := e1.trans e2
    rw [e]
    refine (Payload.pay2_fin (xA V c ⟨0, h⟩) (xW V c ⟨0, h⟩) (k1_pay1 (F := Ideal)) (iblk0_real V c hfin ⟨0, h⟩) p q).trans ?_
    rw [Payload.pay1_apply, D_eq V c ⟨0, h⟩ p q, sum_first (D V c p q) 0 rfl]
  | n + 1, h, hne, p, q => by
    have hN : n + 1 < 64 := lt_of_lt_of_eq h N_1
    by_cases h0 : (n + 1) % 8 = 0
    · have e1 := outsAt1_A V c ⟨n + 1, h⟩ h0 hne
      have e2 := Pieces.out_A c (grid1.coords ⟨n + 1, h⟩) (ms1_0 ⟨n + 1, h⟩) (hs1_0 ⟨n + 1, h⟩) (ms1_1 ⟨n + 1, h⟩) (hs1_1 ⟨n + 1, h⟩)
            (ms1_2 ⟨n + 1, h⟩) (hs1_2 ⟨n + 1, h⟩) ((hcond1_0 ⟨n + 1, h⟩).mpr h0) (fun hh => hne ((hcond1_1 ⟨n + 1, h⟩).mp hh))
            (iblk1 V c 0 ⟨n + 1, h⟩) (iblk1 V c 1 ⟨n + 1, h⟩)
      have e := e1.trans e2
      rw [e]
      refine (Payload.pay2_fin (xA V c ⟨n + 1, h⟩) (xW V c ⟨n + 1, h⟩) (k1_pay1 (F := Ideal)) (iblk0_real V c hfin ⟨n + 1, h⟩) p q).trans ?_
      rw [Payload.pay1_apply, D_eq V c ⟨n + 1, h⟩ p q, sum_first (D V c p q) (n + 1) h0]
    · have e1 := outsAt1_B V c ⟨n + 1, h⟩ h0 hne
      have e2 := Pieces.out_B c (grid1.coords ⟨n + 1, h⟩) (ms1_0 ⟨n + 1, h⟩) (hs1_0 ⟨n + 1, h⟩) (ms1_1 ⟨n + 1, h⟩) (hs1_1 ⟨n + 1, h⟩)
            (ms1_2 ⟨n + 1, h⟩) (hs1_2 ⟨n + 1, h⟩) (fun hh => h0 ((hcond1_0 ⟨n + 1, h⟩).mp hh)) (fun hh => hne ((hcond1_1 ⟨n + 1, h⟩).mp hh))
            (iblk1 V c 0 ⟨n + 1, h⟩) (iblk1 V c 1 ⟨n + 1, h⟩) (outsAt1 V c n (Nat.lt_of_succ_lt h))
      have e := e1.trans e2
      rw [e]
      refine (Payload.pay2_fin (xA V c ⟨n + 1, h⟩) (xW V c ⟨n + 1, h⟩) (outsAt1 V c n (Nat.lt_of_succ_lt h))
        (iblk0_real V c hfin ⟨n + 1, h⟩) p q).trans ?_
      rw [partial_eq c hfin n (Nat.lt_of_succ_lt h) (by omega) p q, D_eq V c ⟨n + 1, h⟩ p q, sum_next (D V c p q) n h0, add_assoc]

/-- At a run's last point: entry `(p, q)` of the buffer is the spike of the zero word plus the row products of all 8
    points of the run. -/
theorem last_eq (c : Dev nD) (hfin : ∀ i, ∃ r : ℝ, (V c main_arg0 i : EReal) = (r : EReal)) (n : ℕ) (h : n < cfg1.N)
    (h7 : n % 8 = 7) (p q : Fin 2048) :
    outsAt1 V c n h (ix2 p q) = Spec.spike (Spec.zero + ∑ s ∈ Finset.range 8, D V c p q (8 * (n / 8) + s)) := by
  obtain ⟨k, rfl⟩ : ∃ k, n = k + 1 := ⟨n - 1, by omega⟩
  have h0 : ¬(k + 1) % 8 = 0 := by omega
  have e1 := outsAt1_C V c ⟨k + 1, h⟩ h0 h7
  have e2 := Pieces.out_C c (grid1.coords ⟨k + 1, h⟩) (ms1_0 ⟨k + 1, h⟩) (hs1_0 ⟨k + 1, h⟩) (ms1_1 ⟨k + 1, h⟩) (hs1_1 ⟨k + 1, h⟩)
        (ms1_2 ⟨k + 1, h⟩) (hs1_2 ⟨k + 1, h⟩) (fun hh => h0 ((hcond1_0 ⟨k + 1, h⟩).mp hh)) ((hcond1_1 ⟨k + 1, h⟩).mpr h7)
        (iblk1 V c 0 ⟨k + 1, h⟩) (iblk1 V c 1 ⟨k + 1, h⟩) (outsAt1 V c k (Nat.lt_of_succ_lt h))
  have e := e1.trans e2
  rw [e, Payload.pay3_apply]
  refine congrArg Spec.spike ?_
  refine (Payload.pay2_fin (xA V c ⟨k + 1, h⟩) (xW V c ⟨k + 1, h⟩) (outsAt1 V c k (Nat.lt_of_succ_lt h))
    (iblk0_real V c hfin ⟨k + 1, h⟩) p q).trans ?_
  rw [partial_eq V c hfin k (Nat.lt_of_succ_lt h) (by omega) p q, D_eq V c ⟨k + 1, h⟩ p q, add_assoc,
    ← sum_next (D V c p q) k h0, h7]

end Cert.KernelIdeal.Accum

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.KFinal.lean ====
/-
  The second launch: the spikes, as one function of the two arrays the launch reads.

  A run of 8 points accumulates, entry by entry of one [2048, 2048] output block, the row products over the run's 8
  feature blocks of 512; consecutive chunks of 512 features are the 4096 features, so the accumulated value at entry
  `(p, q)` of block `(bi, bj)` is the zero word plus the full row product of input row `2048·bi + p` with state row
  `2048·bj + q`, and the run's last point thresholds it and is the only point of the run that writes the block back.
  The 8 blocks tile the [8192, 4096] output, so the array ends at the spike of each entry's full row product.
-/
import proofs.«155956_j12695923326984_2_alg».proof.Proof.KAccum
import proofs.«155956_j12695923326984_2_alg».proof.Proof.LibSumChunks
import Idealize.ShloMosaic.Lib.Pipeline.Value

set_option maxRecDepth 16384

noncomputable section

open scoped BigOperators

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The spikes of the inputs `a` against the already ternarized states `w`: at entry `(r, s)` the spike of the zero
    word plus row `r` of `a` against row `s` of `w`. -/
def G1 (a : S8192x4096.Idx → Elt Ideal .f32) (w : S4096x4096.Idx → Elt Ideal .bf16) : S8192x4096.Idx → Elt Ideal .f32 :=
  fun i => Spec.spike (Spec.zero + ∑ k : Fin 4096,
    (a (ix2 (⟨(i 0).val, (i 0).isLt⟩ : Fin 8192) k) : EReal) * (w (ix2 (⟨(i 1).val, (i 1).isLt⟩ : Fin 4096) k) : EReal))

/-- The 8 points of a run ending at point `n` cover the 4096 features in consecutive chunks of 512: their addends at
    entry `(p, q)` sum to the full row product of the entry's input row and state row. -/
theorem run_sum (c : Dev nD) (n : ℕ) (hN : n < 64) (h7 : n % 8 = 7) (p q : Fin 2048) :
    ∑ s ∈ Finset.range 8, Accum.D V c p q (8 * (n / 8) + s)
      = ∑ k : Fin 4096, Accum.A V c (2048 * (n / 16) + p.val) k.val * Accum.W V c (2048 * (n / 8 % 2) + q.val) k.val := by
  rw [Finset.sum_range,
    Cert.Lib.SumChunks.sum_chunks 8 512 (by norm_num) (fun k : Fin 4096 =>
      Accum.A V c (2048 * (n / 16) + p.val) k.val * Accum.W V c (2048 * (n / 8 % 2) + q.val) k.val)]
  refine Finset.sum_congr rfl fun s _ => ?_
  unfold Accum.D
  refine Finset.sum_congr rfl fun k _ => ?_
  have hs := s.isLt
  have a1 : (8 * (n / 8) + s.val) / 16 = n / 16 := by omega
  have a2 : (8 * (n / 8) + s.val) / 8 % 2 = n / 8 % 2 := by omega
  have a3 : (8 * (n / 8) + s.val) % 8 = s.val := by omega
  rw [a1, a2, a3]

/-- What a run's last point writes back is its block of the spikes. -/
theorem flushed_eq (c : Dev nD) (hfin : ∀ i, ∃ r : ℝ, (V c main_arg0 i : EReal) = (r : EReal)) (t : Fin cfg1.N)
    (hf : (cfg1.win 2).flush t = true) :
    (dat1 V c).flushed 2 t = ((cfg1.win 2).blk t).view.read (Elt Ideal) (G1 (V c main_arg0) (V c main_v0)) := by
  have h7 : t.val % 8 = 7 := (flush1_2 t).mp hf
  have hN : t.val < 64 := lt_of_lt_of_eq t.isLt N_1
  obtain ⟨-, -, -, -, e4, e5⟩ := Accum.idx_facts t
  show (cfg1.win 2).cut (grid1.coords t) ((dat1 V c).after 2 t) = _
  rw [after1_2]
  funext j
  obtain ⟨p, q, rfl⟩ : ∃ (p q : Fin 2048), j = ix2 p q := ⟨j 0, j 1, eq_ix2 j⟩
  show outsAt1 V c t.val t.isLt (ix2 p q) = G1 (V c main_arg0) (V c main_v0) (((cfg1.win 2).blk t).view.emb (ix2 p q))
  rw [Accum.last_eq V c hfin t.val t.isLt h7 p q]
  have hp := p.isLt
  have hq := q.isLt
  have hR : 2048 * (t.val / 16) + p.val < 8192 := by omega
  have hQ : 2048 * (t.val / 8 % 2) + q.val < 4096 := by omega
  have hemb : ((cfg1.win 2).blk t).view.emb (ix2 p q)
      = (ix2 (⟨2048 * (t.val / 16) + p.val, hR⟩ : Fin 8192) (⟨2048 * (t.val / 8 % 2) + q.val, hQ⟩ : Fin 4096) : S8192x4096.Idx) := by
    funext a; apply Fin.ext
    match a with
    | ⟨0, _⟩ => show win1_2.index t (0 : Fin 2) * 2048 + 1 * p.val = 2048 * (t.val / 16) + p.val; omega
    | ⟨1, _⟩ => show win1_2.index t (1 : Fin 2) * 2048 + 1 * q.val = 2048 * (t.val / 8 % 2) + q.val; omega
  rw [hemb]
  unfold G1
  refine congrArg Spec.spike (congrArg (Spec.zero + ·) ?_)
  refine (run_sum V c t.val hN h7 p q).trans ?_
  refine Finset.sum_congr rfl fun k _ => ?_
  unfold Accum.A Accum.W
  rw [dif_pos ⟨hR, k.isLt⟩, dif_pos ⟨hQ, k.isLt⟩]

/-- An index of the array is in point `t`'s block iff each coordinate is in the block's range on its axis. -/
theorem mem_blk (t : Fin cfg1.N) (i : S8192x4096.Idx) :
    i ∈ ((cfg1.win 2).blk t).view.set ↔ ∀ a : Fin 2, win1_2.index t a * S2048x2048.size a ≤ (i a).val ∧ (i a).val < win1_2.index t a * S2048x2048.size a + S2048x2048.size a := by
  show i ∈ ((View.whole main_v1).slice (win1_2.rect t)).set ↔ _
  rw [View.set_slice_whole, Rect.mem_set_unit]
  exact Iff.rfl

/-- Every entry of the output lies in the block written back by the last point of its block's run. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 64 := N_1
  let t : Fin cfg1.N := ⟨16 * ((i 0).val / 2048) + 8 * ((i 1).val / 2048) + 7, by rw [hN]; omega⟩
  have ht : t.val = 16 * ((i 0).val / 2048) + 8 * ((i 1).val / 2048) + 7 := rfl
  obtain ⟨-, -, -, -, e4, e5⟩ := Accum.idx_facts t
  refine ⟨t, (flush1_2 t).mpr (by omega), ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 2048 ≤ (i 1).val ∧ (i 1).val < win1_2.index t (1 : Fin 2) * 2048 + 2048; omega

/-- The output array after the launch: the spikes of the inputs against the ternarized states, both as the launch
    found them, when the inputs are real numbers. -/
theorem final (c : Dev nD) (hfin : ∀ i, ∃ r : ℝ, (V c main_arg0 i : EReal) = (r : EReal)) :
    (dat1 V c).arrAt 2 cfg1.N = G1 (V c main_arg0) (V c main_v0) :=
  (dat1 V c).arrAt_eq_of_cover 2 (G1 (V c main_arg0) (V c main_v0)) (fun t hf => flushed_eq V c hfin t hf) cover

end Cert.KernelIdeal.Final

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.PreSide.lean ====
/-
  The finiteness precondition read back: every entry of both argument arrays is a real number.

  The printed precondition is the conjunction of two tests, one per argument array: "every entry's absolute value is
  below +∞". Its word being 1 makes both conjuncts 1; a conjunction over all entries that is 1 met a 1 at every entry;
  and at one entry the comparison |x| < +∞ being 1 says x is neither +∞ nor -∞, that is, a real.
-/
import proofs.«155956_j12695923326984_2_alg».proof.Defs
import proofs.«155956_j12695923326984_2_alg».proof.Proof.Gen.Pre_finite_inputs
import proofs.«155956_j12695923326984_2_alg».proof.Proof.LibFinite
import Idealize.ShloMosaic.Lib.ReduceAll
import Idealize.ShloMosaic.Lib.ValueIdx

noncomputable section

namespace Cert.PreSide

open Idealize.ShloMosaic Cert.Pre_finite_inputs

/-- The precondition's word being 1 makes each of its two "all entries finite" tests 1 at every entry. -/
theorem tests_one (x0 : FVec Ideal Cert.Pre_finite_inputs.S8192x4096 .f32) (x1 : FVec Ideal Cert.Pre_finite_inputs.S4096x4096 .f32)
    (h : Cert.Pre_finite_inputs.fn (F := Ideal) x0 x1 = fun _ => 1#1) :
    (∀ i, Ideal.cmp .olt (max (x0 i) (-(x0 i))) (Ideal.ofBits .f32 0x7F800000#32) = 1#1)
      ∧ ∀ i, Ideal.cmp .olt (max (x1 i) (-(x1 i))) (Ideal.ofBits .f32 0x7F800000#32) = 1#1 := by
  have h0 := congrFun h ValueIdx.ix0
  dsimp only [Cert.Pre_finite_inputs.fn] at h0
  obtain ⟨ha, hb⟩ := IntOp.andi_eq_one.1 h0
  refine ⟨fun i => ?_, fun i => ?_⟩
  · exact Host.reduce_andi_all _ _ _ _ _ ha i
  · exact Host.reduce_andi_all _ _ _ _ _ hb i

/-- Under the precondition every entry of the first argument array is a real. -/
theorem arg0_real (x0 : FVec Ideal Cert.Pre_finite_inputs.S8192x4096 .f32) (x1 : FVec Ideal Cert.Pre_finite_inputs.S4096x4096 .f32)
    (h : Cert.Pre_finite_inputs.fn (F := Ideal) x0 x1 = fun _ => 1#1) : ∀ i, ∃ r : ℝ, x0 i = (r : EReal) :=
  fun i => Cert.Lib.Finite.real_of_cmp (x0 i) ((tests_one x0 x1 h).1 i)

/-- Under the precondition every entry of the second argument array is a real. -/
theorem arg1_real (x0 : FVec Ideal Cert.Pre_finite_inputs.S8192x4096 .f32) (x1 : FVec Ideal Cert.Pre_finite_inputs.S4096x4096 .f32)
    (h : Cert.Pre_finite_inputs.fn (F := Ideal) x0 x1 = fun _ => 1#1) : ∀ i, ∃ r : ℝ, x1 i = (r : EReal) :=
  fun i => Cert.Lib.Finite.real_of_cmp (x1 i) ((tests_one x0 x1 h).2 i)

end Cert.PreSide

end
-- ==== Proof.KWhole.lean ====
/-
  The idealized kernel's result, as the specification's function of the two arguments.

  The second launch finds the inputs as launched (the first launch does not write them) and the ternarized states the
  first launch left: the pointwise ternarization of the synapse states as launched. Under the precondition the inputs
  are real numbers, so the second launch leaves the spikes of the inputs against those ternarized states; the zero word
  the accumulation starts from is the number 0, and what remains is the specification, entry by entry.
-/
import proofs.«155956_j12695923326984_2_alg».proof.Proof.KRun
import proofs.«155956_j12695923326984_2_alg».proof.Proof.KTern
import proofs.«155956_j12695923326984_2_alg».proof.Proof.KFinal
import proofs.«155956_j12695923326984_2_alg».proof.Proof.PreSide
import proofs.«155956_j12695923326984_2_alg».proof.Defs
import Idealize.ShloMosaic.PureOps.Ideal.Laws

set_option maxRecDepth 16384

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The second launch finds the inputs as launched. -/
theorem entry_inputs (c : Dev nD) : V1 m ρ c main_arg0 = m ((c : Thread nD τ).loc main_arg0) :=
  (W1_of_ne m ρ c main_arg0 (by decide)).trans rfl

/-- The second launch finds the synapse states as launched, ternarized entry by entry. -/
theorem entry_states (c : Dev nD) : V1 m ρ c main_v0 = Tern.G0 (m ((c : Thread nD τ).loc main_arg1)) :=
  (W1_arr m ρ c 1).trans (Tern.final (V0 m ρ) c)

/-- The spikes against the ternarized states are the specification: the accumulation's zero word is the number 0, and
    the body's ternarization is the specification's, the change of float format being the identity. -/
theorem spikes_eq (a : S8192x4096.Idx → Elt Ideal .f32) (s : S4096x4096.Idx → Elt Ideal .f32) :
    Final.G1 a (Tern.G0 s) = Spec.G a s := by
  funext i
  unfold Final.G1 Spec.G Spec.current
  refine congrArg Spec.spike ?_
  rw [show Spec.zero = (0 : EReal) from Ideal.ofBits_zero_f32, zero_add]
  rfl

/-- The result array after the run, under the precondition. -/
theorem result_eq (c : Dev nD) (hpre : Cert.Pre_KernelIdeal m) :
    (dat1 (V1 m ρ) c).arrAt 2 cfg1.N
      = Spec.G (m ((c : Thread nD τ).loc main_arg0)) (m ((c : Thread nD τ).loc main_arg1)) := by
  have hfin : ∀ i, ∃ r : ℝ, (V1 m ρ c main_arg0 i : EReal) = (r : EReal) := by
    rw [entry_inputs]
    exact Cert.PreSide.arg0_real _ _ (hpre c)
  rw [Final.final (V1 m ρ) c hfin, entry_inputs, entry_states, spikes_eq]

/-- The run, read: the result array at the specification's function of the arguments, the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v1)
        = Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c hpre), (h c).2⟩) (RunV.run_result m ρ)

end Cert.KernelIdeal.Whole

end
-- ==== Proof.lean ====
/-
  The certificate's claim: the three frames, the idealization's one rewrite, and the two idealized programs computing the
  same spikes.

  Both idealized programs compute, for sample `p` and neuron `q`, the spike `[∑ₖ a(p,k) · tern (s(q,k)) ≥ 1]` of the
  inputs `a` and the synapse states `s` (Proof/Spec.lean). The reference forms the ternarized states, transposes
  them and takes one matrix product (Proof/RefSide.lean). The kernel ternarizes the states in a first launch
  (Proof/KTern.lean) and in a second launch accumulates the product over 8 blocks of 512 features, each block's
  contribution the sum of a main product and a compensation product of `a - a`, which is 0 for real inputs
  (Proof/KPayload.lean, Proof/KAccum.lean, Proof/KFinal.lean); a sum over consecutive chunks is the whole sum, in any
  commutative monoid, so the two currents are one extended real and so are their spikes (Proof/KWhole.lean). The inputs
  are real numbers by the precondition (Proof/PreSide.lean). The idealization replaced one round trip through the 16-bit
  format by the identity, which is what its rule states.
-/
import proofs.«155956_j12695923326984_2_alg».proof.Defs
import proofs.«155956_j12695923326984_2_alg».proof.Proof.Gen.Kernel
import proofs.«155956_j12695923326984_2_alg».proof.Proof.Gen.Kernel.Skeleton
import proofs.«155956_j12695923326984_2_alg».proof.Proof.Gen.Kernel.Launch
import proofs.«155956_j12695923326984_2_alg».proof.Proof.Gen.Kernel.Points
import proofs.«155956_j12695923326984_2_alg».proof.Proof.Gen.Kernel.Frame
import proofs.«155956_j12695923326984_2_alg».proof.Proof.Gen.KernelIdeal
import proofs.«155956_j12695923326984_2_alg».proof.Proof.Gen.KernelIdeal.Skeleton
import proofs.«155956_j12695923326984_2_alg».proof.Proof.Gen.KernelIdeal.Launch
import proofs.«155956_j12695923326984_2_alg».proof.Proof.Gen.KernelIdeal.Points
import proofs.«155956_j12695923326984_2_alg».proof.Proof.Gen.KernelIdeal.Frame
import proofs.«155956_j12695923326984_2_alg».proof.Proof.Gen.ReferenceIdeal
import proofs.«155956_j12695923326984_2_alg».proof.Proof.Gen.Pre_finite_inputs
import proofs.«155956_j12695923326984_2_alg».proof.Proof.Gen.ReferenceIdeal.Run
import proofs.«155956_j12695923326984_2_alg».proof.Proof.Gen.ReferenceIdeal.Read
import proofs.«155956_j12695923326984_2_alg».proof.Proof.RefSide
import proofs.«155956_j12695923326984_2_alg».proof.Proof.KWhole
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: widening back a value narrowed to the 16-bit format is, at the ideal instance, the
    value itself. -/
theorem preserves : Cert.preserves_Kernel_KernelIdeal := IdealRules.truncf_extf.statement _ .f32 .bf16

/-- From memories agreeing on the arguments both idealized programs end with the specification's spikes of those
    arguments in their result arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.RefSide.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
